-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg5 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S50000x96 .f32) (main_arg1 : IVec S2x800000 32) (main_arg2 : FVec F S96x96 .f32) (main_arg3 : FVec F S96 .f32) (main_arg4 : FVec F S96x96 .f32) (main_arg5 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x96 : Shape := ⟨2, ![1, 96]⟩
abbrev S5000x96 : Shape := ⟨2, ![5000, 96]⟩
abbrev S800000x96 : Shape := ⟨2, ![800000, 96]⟩

abbrev nBuf : Space → Nat
  | .hbm => 62
  | .vmem => 16
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S96x96, .f32⟩
  | .hbm, ⟨40, _⟩ => ⟨S96x96, .f32⟩
  | .hbm, ⟨41, _⟩ => ⟨S1x96, .f32⟩
  | .hbm, ⟨42, _⟩ => ⟨S1x96, .f32⟩
  | .hbm, ⟨43, _⟩ => ⟨S50000x96, .f32⟩
  | .hbm, ⟨44, _⟩ => ⟨S50000x96, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x96, .f32⟩
  | .hbm, ⟨54, _⟩ => ⟨S800000x1, .f32⟩
  | .hbm, ⟨55, _⟩ => ⟨S800000x96, .f32⟩
  | .hbm, ⟨56, _⟩ => ⟨S800000x96, .f32⟩
  | .hbm, ⟨57, _⟩ => ⟨S_, .f32⟩
  | .hbm, ⟨58, _⟩ => ⟨S50000x96, .f32⟩
  | .hbm, ⟨59, _⟩ => ⟨S800000x1, .i32⟩
  | .hbm, ⟨60, _⟩ => ⟨S50000x96, .f32⟩
  | .hbm, ⟨61, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S1x96, .f32⟩
  | .local _ .vmem, ⟨4, _⟩ => ⟨S96x96, .f32⟩
  | .local _ .vmem, ⟨5, _⟩ => ⟨S1x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  transposes_S96x96_S96x96_1_0 : S96x96.Transposes [1, 0] S96x96
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S5000x96_S5000x96 : S5000x96.ShapeCasts S5000x96
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x96_S96x96_S5000x96_1_0_0_1_n_n_wf : DotDims.WF S5000x96 S96x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30_0) S5000x96.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30_1) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v43) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30_1) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x96 : Shape := ⟨2, ![1, 96]⟩
abbrev S800000x96 : Shape := ⟨2, ![800000, 96]⟩

abbrev nBuf : Space → Nat
  | .hbm => 69
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S96x96, .f32⟩
  | .hbm, ⟨40, _⟩ => ⟨S50000x96, .f32⟩
  | .hbm, ⟨41, _⟩ => ⟨S1x96, .f32⟩
  | .hbm, ⟨42, _⟩ => ⟨S50000x96, .f32⟩
  | .hbm, ⟨43, _⟩ => ⟨S50000x96, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x96, .f32⟩
  | .hbm, ⟨53, _⟩ => ⟨S800000x1, .f32⟩
  | .hbm, ⟨54, _⟩ => ⟨S800000x96, .f32⟩
  | .hbm, ⟨55, _⟩ => ⟨S800000x96, .f32⟩
  | .hbm, ⟨56, _⟩ => ⟨S_, .f32⟩
  | .hbm, ⟨57, _⟩ => ⟨S50000x96, .f32⟩
  | .hbm, ⟨58, _⟩ => ⟨S800000x1, .i32⟩
  | .hbm, ⟨59, _⟩ => ⟨S50000x96, .f32⟩
  | .hbm, ⟨60, _⟩ => ⟨S96x96, .f32⟩
  | .hbm, ⟨61, _⟩ => ⟨S50000x96, .f32⟩
  | .hbm, ⟨62, _⟩ => ⟨S50000x96, .f32⟩
  | .hbm, ⟨63, _⟩ => ⟨S1x96, .f32⟩
  | .hbm, ⟨64, _⟩ => ⟨S50000x96, .f32⟩
  | .hbm, ⟨65, _⟩ => ⟨S50000x96, .f32⟩
  | .hbm, ⟨66, _⟩ => ⟨S_, .f32⟩
  | .hbm, ⟨67, _⟩ => ⟨S50000x96, .f32⟩
  | .hbm, ⟨68, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call0_cst : Ref sig .tc := ⟨.hbm, 66, rfl⟩
abbrev main_call0_v0 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  transposes_S96x96_S96x96_1_0 : S96x96.Transposes [1, 0] S96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.KRun.lean ====
/-
  The idealized kernel's run with its result array NAMED. The program is two kernel regions among two stretches of
  host operations; its buffers' contents at the four segment boundaries are the generated fold `W1 … W4`
  (entry of the first region, its exit, entry of the second region, its exit). Every weakly fair execution
  terminates with the result buffer at `W4` read at the result's reference and with the six argument arrays
  as launched. What `W4` holds there is read in the sibling modules.
-/
import proofs.«159277_j4071628996707_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Hand

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.Spec.lean ====
/-
  The mathematics of one graph-convolution layer with a separate root weight, on 50000 nodes with 96 features.

  For a node-feature array X, a weight matrix WT (already transposed) and a bias b, the dense layer is
      lin(X, WT, b)(p, q) = ∑ k, X(p,k)·WT(k,q) + b(q).
  The layer's output is max(agg + root, 0) entry by entry, where `agg` is the normalised scatter-add of the gathered
  rows of lin(X, WT₁, b₁) and `root` = lin(X, WT₂, b₂). The kernel adds the bias inside `root`, the reference adds
  it last; addition of extended reals is associative, so the two agree (`relu_assoc`).

  Everything here is over literal shapes and the extended reals; no program is imported.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn

open Idealize.ShloMosaic Idealize.ShloMosaic.ValueIdx

/-- Entry (p, q) of X·WT + b for an n-row X, a 96×96 WT and a bias given as a 1×96 row. -/
def linAt {n : ℕ} (X : (⟨2, ![n, 96]⟩ : Shape).Idx → EReal) (WT : (⟨2, ![96, 96]⟩ : Shape).Idx → EReal)
    (b : (⟨2, ![1, 96]⟩ : Shape).Idx → EReal) (p : Fin n) (q : Fin 96) : EReal :=
  (∑ k : Fin 96, X (ix2 p k) * WT (ix2 k q)) + b (ix2 (0 : Fin 1) q)

/-- X·WT + b as one function of a 50000-row X, the bias a 1×96 row. -/
def linArr (X : (⟨2, ![50000, 96]⟩ : Shape).Idx → EReal) (WT : (⟨2, ![96, 96]⟩ : Shape).Idx → EReal)
    (b : (⟨2, ![1, 96]⟩ : Shape).Idx → EReal) : (⟨2, ![50000, 96]⟩ : Shape).Idx → EReal :=
  fun i => linAt X WT b ⟨(i 0).val, idx2_lt0 i⟩ ⟨(i 1).val, idx2_lt1 i⟩

/-- The same with the bias a plain vector of 96 entries. -/
def linVec (X : (⟨2, ![50000, 96]⟩ : Shape).Idx → EReal) (WT : (⟨2, ![96, 96]⟩ : Shape).Idx → EReal)
    (b : (⟨1, ![96]⟩ : Shape).Idx → EReal) : (⟨2, ![50000, 96]⟩ : Shape).Idx → EReal :=
  fun i => (∑ k : Fin 96, X (ix2 (⟨(i 0).val, idx2_lt0 i⟩ : Fin 50000) k) * WT (ix2 k (⟨(i 1).val, idx2_lt1 i⟩ : Fin 96)))
    + b (ix1 (⟨(i 1).val, idx2_lt1 i⟩ : Fin 96))

/-- A bias vector viewed as a 1×96 row gives the same layer. -/
theorem linArr_shapeCast (X : (⟨2, ![50000, 96]⟩ : Shape).Idx → EReal) (WT : (⟨2, ![96, 96]⟩ : Shape).Idx → EReal)
    (b : (⟨1, ![96]⟩ : Shape).Idx → EReal) (h : (⟨1, ![96]⟩ : Shape).ShapeCasts ⟨2, ![1, 96]⟩) :
    linArr X WT (shapeCast ⟨2, ![1, 96]⟩ b h) = linVec X WT b := by
  funext i
  unfold linArr linAt linVec
  rw [shapeCast_a_1a_apply b h (0 : Fin 1) _]

/-- The zero the layer clamps at: the value of the f32 zero word. -/
def zero32 : EReal := Ideal.ofBits .f32 0x00000000#32

/-- Entry-wise max(a + r, 0) of two 50000×96 arrays. -/
def reluArr (A R : (⟨2, ![50000, 96]⟩ : Shape).Idx → EReal) : (⟨2, ![50000, 96]⟩ : Shape).Idx → EReal :=
  fun i => max (A i + R i) zero32

/-- Adding the bias inside the root term or last is the same: addition of extended reals is associative. -/
theorem relu_assoc (a s b : EReal) : max (a + (s + b)) zero32 = max ((a + s) + b) zero32 := by
  rw [add_assoc]

end Cert.Gcn

end
-- ==== Proof.Lin.lean ====
/-
  The arithmetic of the two kernel bodies, at the ideal values, entry by entry.

  The first kernel's body takes a 5000-row block X of the node features, a 96×96 weight matrix WT (already transposed
  on the host) and a 1×96 bias row b, and stores X·WT + b: the change of format to bf16 before the product is the
  identity on extended reals, the product into the zero accumulator is the plain sum over the shared axis, and the
  bias row is repeated down the rows. So entry (p, q) of what it stores is  ∑ k, X(p,k)·WT(k,q) + b(0,q)  (`linAt`).

  The second kernel's body stores max(a + r, 0) entry by entry.
-/
import proofs.«159277_j4071628996707_1_alg».proof.Proof.Gen.KernelIdeal.Skeleton
import proofs.«159277_j4071628996707_1_alg».proof.Proof.LibPlainDot
import proofs.«159277_j4071628996707_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen Cert.Gcn

/-- What the first kernel's body stores into its first output, at entry (p, q). -/
theorem pay2_apply (x0 : Vec Ideal S5000x96 .f32) (x1 : Vec Ideal S96x96 .f32) (x2 : Vec Ideal S1x96 .f32)
    (p : Fin 5000) (q : Fin 96) :
    k0_pay2 (F := Ideal) x0 x1 x2 (ix2 p q) = linAt x0 x1 x2 p q := by
  unfold k0_pay2 k0_pay1 linAt
  dsimp only
  rw [shapeCast_self, shapeCast_self]
  refine congrArg₂ (· + ·) ?_ ?_
  · exact Cert.LibPlainDot.matmul_zero_apply none x0 x1 p q
  · exact broadcastTo_1b_ab_apply x2 _ p q

/-- What the first kernel's body stores into its second output, at entry (p, q). -/
theorem pay3_apply (x0 : Vec Ideal S5000x96 .f32) (x3 : Vec Ideal S96x96 .f32) (x4 : Vec Ideal S1x96 .f32)
    (p : Fin 5000) (q : Fin 96) :
    k0_pay3 (F := Ideal) x0 x3 x4 (ix2 p q) = linAt x0 x3 x4 p q := by
  unfold k0_pay3 k0_pay1 linAt
  dsimp only
  rw [shapeCast_self, shapeCast_self]
  refine congrArg₂ (· + ·) ?_ ?_
  · exact Cert.LibPlainDot.matmul_zero_apply none x0 x3 p q
  · exact broadcastTo_1b_ab_apply x4 _ p q

/-- What the second kernel's body stores, at an entry. -/
theorem pay_relu_apply (x0 x1 : Vec Ideal S5000x96 .f32) (j : S5000x96.Idx) :
    k1_pay1 (F := Ideal) x0 x1 j = max (x0 j + x1 j) zero32 := by
  unfold k1_pay1
  rw [shapeCast_self, shapeCast_self]
  rfl

end Cert.KernelIdeal.Hand

end
-- ==== Proof.Region0.lean ====
/-
  The first kernel region, read as a whole-array function, for any contents `V` of the buffers at its entry.

  The region walks ten grid points; point t reads rows 5000·t … 5000·t + 4999 of the node-feature array, the two
  whole weight matrices and the two bias rows, and writes the same rows of its two outputs. Entry (p, q) of what
  point t writes is X(5000·t + p, ·)·WT(·, q) + b(0, q) (the body's arithmetic, `pay2_apply` / `pay3_apply`), so each
  written block is the block of ONE function of the whole arrays, `linArr`; the ten blocks tile the 50000 rows,
  hence after the region each output array IS `linArr` of the arrays the region found.
-/
import proofs.«159277_j4071628996707_1_alg».proof.Proof.Gen.KernelIdeal.Frame
import proofs.«159277_j4071628996707_1_alg».proof.Proof.Lin
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem hz0 : (![0, 0] : Fin 2 → Nat) = fun _ => 0 := funext fun a => by fin_cases a <;> rfl

/-- Where each window's block sits at grid point t: the row-blocked windows at block row t, the others at the origin. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The node-feature block at point t holds rows 5000·t + · of the array. -/
theorem iblk0_0_apply (c : Dev nD) (t : Fin cfg0.N) (x : S5000x96.Idx) (k : S50000x96.Idx)
    (hk0 : (k 0).val = 5000 * t.val + (x 0).val) (hk1 : (k 1).val = (x 1).val) :
    (iblk0 V c 0 t : Vec Ideal S5000x96 .f32) x = (V c main_arg0 : S50000x96.Idx → EReal) k := by
  obtain ⟨e0, e1, -⟩ := idx_facts0 t
  unfold iblk0
  rw [View.read_apply]
  show V c main_arg0 _ = V c main_arg0 _
  refine congrArg (V c main_arg0) ?_
  funext a
  apply Fin.ext
  match a with
  | ⟨0, _⟩ => show win0_0.index t 0 * 5000 + 1 * (x 0).val = (k 0).val; rw [e0, hk0]; omega
  | ⟨1, _⟩ => show win0_0.index t 1 * 96 + 1 * (x 1).val = (k 1).val; rw [e1, hk1]; omega

/-- The first weight matrix's block is the whole matrix at every point. -/
theorem iblk0_1_apply (c : Dev nD) (t : Fin cfg0.N) (x : S96x96.Idx) :
    (iblk0 V c 1 t : Vec Ideal S96x96 .f32) x = (V c main_v26 : S96x96.Idx → EReal) x := by
  obtain ⟨-, -, e0, e1, -⟩ := idx_facts0 t
  unfold iblk0
  rw [View.read_apply]
  show V c main_v26 _ = V c main_v26 _
  refine congrArg (V c main_v26) ?_
  funext a
  apply Fin.ext
  match a with
  | ⟨0, _⟩ => show win0_1.index t 0 * 96 + 1 * (x 0).val = (x 0).val; rw [e0]; omega
  | ⟨1, _⟩ => show win0_1.index t 1 * 96 + 1 * (x 1).val = (x 1).val; rw [e1]; omega

/-- The first bias row's block is the whole row at every point. -/
theorem iblk0_2_apply (c : Dev nD) (t : Fin cfg0.N) (x : S1x96.Idx) :
    (iblk0 V c 2 t : Vec Ideal S1x96 .f32) x = (V c main_v28 : S1x96.Idx → EReal) x := by
  obtain ⟨-, -, -, -, e0, e1, -⟩ := idx_facts0 t
  unfold iblk0
  rw [View.read_apply]
  show V c main_v28 _ = V c main_v28 _
  refine congrArg (V c main_v28) ?_
  funext a
  apply Fin.ext
  match a with
  | ⟨0, _⟩ => show win0_2.index t 0 * 1 + 1 * (x 0).val = (x 0).val; rw [e0]; omega
  | ⟨1, _⟩ => show win0_2.index t 1 * 96 + 1 * (x 1).val = (x 1).val; rw [e1]; omega

/-- The second weight matrix's block is the whole matrix at every point. -/
theorem iblk0_3_apply (c : Dev nD) (t : Fin cfg0.N) (x : S96x96.Idx) :
    (iblk0 V c 3 t : Vec Ideal S96x96 .f32) x = (V c main_v27 : S96x96.Idx → EReal) x := by
  obtain ⟨-, -, -, -, -, -, e0, e1, -⟩ := idx_facts0 t
  unfold iblk0
  rw [View.read_apply]
  show V c main_v27 _ = V c main_v27 _
  refine congrArg (V c main_v27) ?_
  funext a
  apply Fin.ext
  match a with
  | ⟨0, _⟩ => show win0_3.index t 0 * 96 + 1 * (x 0).val = (x 0).val; rw [e0]; omega
  | ⟨1, _⟩ => show win0_3.index t 1 * 96 + 1 * (x 1).val = (x 1).val; rw [e1]; omega

/-- The second bias row's block is the whole row at every point. -/
theorem iblk0_4_apply (c : Dev nD) (t : Fin cfg0.N) (x : S1x96.Idx) :
    (iblk0 V c 4 t : Vec Ideal S1x96 .f32) x = (V c main_v29 : S1x96.Idx → EReal) x := by
  obtain ⟨-, -, -, -, -, -, -, -, e0, e1, -⟩ := idx_facts0 t
  unfold iblk0
  rw [View.read_apply]
  show V c main_v29 _ = V c main_v29 _
  refine congrArg (V c main_v29) ?_
  funext a
  apply Fin.ext
  match a with
  | ⟨0, _⟩ => show win0_4.index t 0 * 1 + 1 * (x 0).val = (x 0).val; rw [e0]; omega
  | ⟨1, _⟩ => show win0_4.index t 1 * 96 + 1 * (x 1).val = (x 1).val; rw [e1]; omega

/-- `linAt` of a point's blocks is `linArr` of the whole arrays at the block's place in the array. -/
theorem linAt_blocks (c : Dev nD) (t : Fin cfg0.N) (p : Fin 5000) (q : Fin 96)
    (x0 : Vec Ideal S5000x96 .f32) (x1 : Vec Ideal S96x96 .f32) (x2 : Vec Ideal S1x96 .f32)
    (A : S50000x96.Idx → EReal) (W : S96x96.Idx → EReal) (B : S1x96.Idx → EReal)
    (h0 : ∀ (x : S5000x96.Idx) (k : S50000x96.Idx), (k 0).val = 5000 * t.val + (x 0).val → (k 1).val = (x 1).val → x0 x = A k)
    (h1 : ∀ x, x1 x = W x) (h2 : ∀ x, x2 x = B x)
    (i : S50000x96.Idx) (hi0 : (i 0).val = 5000 * t.val + p.val) (hi1 : (i 1).val = q.val) :
    linAt x0 x1 x2 p q = linArr A W B i := by
  unfold linArr linAt
  have hq : (⟨(i 1).val, idx2_lt1 i⟩ : Fin 96) = q := Fin.ext hi1
  rw [hq]
  refine congrArg₂ (· + ·) (Finset.sum_congr rfl fun k _ => congrArg₂ (· * ·) ?_ (h1 _)) (h2 _)
  exact h0 (ix2 p k) (ix2 ⟨(i 0).val, idx2_lt0 i⟩ k) (by show (i 0).val = 5000 * t.val + p.val; exact hi0) rfl

/-- What point t writes back to the first output is block t of `linArr` of the arrays the region found. -/
theorem flushed5_eq (c : Dev nD) (t : Fin cfg0.N) :
    (dat0 V c).flushed 5 t = ((cfg0.win 5).blk t).view.read (Elt Ideal) (linArr (V c main_arg0) (V c main_v26) (V c main_v28)) := by
  obtain ⟨-, -, -, -, -, -, -, -, -, -, e0, e1, -⟩ := idx_facts0 t
  show (cfg0.win 5).cut (grid0.coords t) ((dat0 V c).after 5 t) = _
  rw [after0_5]
  unfold out0_5
  rw [View.canon_unit_zero hz0]
  simp only [View.ld_unit_zero (S := S5000x96) hz0, View.ld_unit_zero (S := S96x96) hz0, View.ld_unit_zero (S := S1x96) hz0]
  funext j
  obtain ⟨p, q, rfl⟩ : ∃ (p : Fin 5000) (q : Fin 96), j = ix2 p q := ⟨j 0, j 1, eq_ix2 j⟩
  show k0_pay2 (F := Ideal) (iblk0 V c 0 t) (iblk0 V c 1 t) (iblk0 V c 2 t) (ix2 p q)
    = linArr (V c main_arg0) (V c main_v26) (V c main_v28) (((cfg0.win 5).blk t).view.emb (ix2 p q))
  refine (pay2_apply (iblk0 V c 0 t) (iblk0 V c 1 t) (iblk0 V c 2 t) p q).trans ?_
  refine linAt_blocks c t p q _ _ _ _ _ _ (iblk0_0_apply V c t) (iblk0_1_apply V c t) (iblk0_2_apply V c t) _ ?_ ?_
  · show win0_5.index t 0 * 5000 + 1 * p.val = 5000 * t.val + p.val; rw [e0]; omega
  · show win0_5.index t 1 * 96 + 1 * q.val = q.val; rw [e1]; omega

/-- What point t writes back to the second output, likewise. -/
theorem flushed6_eq (c : Dev nD) (t : Fin cfg0.N) :
    (dat0 V c).flushed 6 t = ((cfg0.win 6).blk t).view.read (Elt Ideal) (linArr (V c main_arg0) (V c main_v27) (V c main_v29)) := by
  obtain ⟨-, -, -, -, -, -, -, -, -, -, -, -, e0, e1⟩ := idx_facts0 t
  show (cfg0.win 6).cut (grid0.coords t) ((dat0 V c).after 6 t) = _
  rw [after0_6]
  unfold out0_6
  rw [View.canon_unit_zero hz0]
  simp only [View.ld_unit_zero (S := S5000x96) hz0, View.ld_unit_zero (S := S96x96) hz0, View.ld_unit_zero (S := S1x96) hz0]
  funext j
  obtain ⟨p, q, rfl⟩ : ∃ (p : Fin 5000) (q : Fin 96), j = ix2 p q := ⟨j 0, j 1, eq_ix2 j⟩
  show k0_pay3 (F := Ideal) (iblk0 V c 0 t) (iblk0 V c 3 t) (iblk0 V c 4 t) (ix2 p q)
    = linArr (V c main_arg0) (V c main_v27) (V c main_v29) (((cfg0.win 6).blk t).view.emb (ix2 p q))
  refine (pay3_apply (iblk0 V c 0 t) (iblk0 V c 3 t) (iblk0 V c 4 t) p q).trans ?_
  refine linAt_blocks c t p q _ _ _ _ _ _ (iblk0_0_apply V c t) (iblk0_3_apply V c t) (iblk0_4_apply V c t) _ ?_ ?_
  · show win0_6.index t 0 * 5000 + 1 * p.val = 5000 * t.val + p.val; rw [e0]; omega
  · show win0_6.index t 1 * 96 + 1 * q.val = q.val; rw [e1]; omega

/-- An index of the first output's array is in point t's block iff each coordinate is in the block's range. -/
theorem mem_blk5 (t : Fin cfg0.N) (i : S50000x96.Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v30_0).slice (win0_5.rect t)).set ↔ _
  rw [View.set_slice_whole, Rect.mem_set_unit]
  exact Iff.rfl

theorem mem_blk6 (t : Fin cfg0.N) (i : S50000x96.Idx) :
    i ∈ ((cfg0.win 6).blk t).view.set ↔ ∀ a : Fin 2, win0_6.index t a * S5000x96.size a ≤ (i a).val ∧ (i a).val < win0_6.index t a * S5000x96.size a + S5000x96.size a := by
  show i ∈ ((View.whole main_v30_1).slice (win0_6.rect t)).set ↔ _
  rw [View.set_slice_whole, Rect.mem_set_unit]
  exact Iff.rfl

/-- Row r is written by the point r / 5000. -/
def rowPoint0 (i : S50000x96.Idx) : Fin cfg0.N :=
  ⟨(i 0).val / 5000, by have h := idx2_lt0 i; show (i 0).val / 5000 < 10; omega⟩

/-- After the region the first output is X·WT₁ + b₁ of the arrays the region found. -/
theorem arr0_5 (c : Dev nD) :
    (dat0 V c).arrAt 5 cfg0.N = linArr (V c main_arg0) (V c main_v26) (V c main_v28) :=
  (dat0 V c).arrAt_eq_of_cover 5 (linArr (V c main_arg0) (V c main_v26) (V c main_v28)) (fun t _ => flushed5_eq V c t) fun i => by
    have h0 : (i 0).val < 50000 := idx2_lt0 i
    have h1 : (i 1).val < 96 := idx2_lt1 i
    obtain ⟨-, -, -, -, -, -, -, -, -, -, e0, e1, -⟩ := idx_facts0 (rowPoint0 i)
    refine ⟨rowPoint0 i, flush0_5 _, ?_⟩
    rw [mem_blk5]
    intro a
    match a with
    | ⟨0, _⟩ =>
      show win0_5.index (rowPoint0 i) 0 * 5000 ≤ (i 0).val ∧ (i 0).val < win0_5.index (rowPoint0 i) 0 * 5000 + 5000
      rw [e0]; show (i 0).val / 5000 * 5000 ≤ (i 0).val ∧ (i 0).val < (i 0).val / 5000 * 5000 + 5000; omega
    | ⟨1, _⟩ =>
      show win0_5.index (rowPoint0 i) 1 * 96 ≤ (i 1).val ∧ (i 1).val < win0_5.index (rowPoint0 i) 1 * 96 + 96
      rw [e1]; omega

/-- After the region the second output is X·WT₂ + b₂ of the arrays the region found. -/
theorem arr0_6 (c : Dev nD) :
    (dat0 V c).arrAt 6 cfg0.N = linArr (V c main_arg0) (V c main_v27) (V c main_v29) :=
  (dat0 V c).arrAt_eq_of_cover 6 (linArr (V c main_arg0) (V c main_v27) (V c main_v29)) (fun t _ => flushed6_eq V c t) fun i => by
    have h0 : (i 0).val < 50000 := idx2_lt0 i
    have h1 : (i 1).val < 96 := idx2_lt1 i
    obtain ⟨-, -, -, -, -, -, -, -, -, -, -, -, e0, e1⟩ := idx_facts0 (rowPoint0 i)
    refine ⟨rowPoint0 i, flush0_6 _, ?_⟩
    rw [mem_blk6]
    intro a
    match a with
    | ⟨0, _⟩ =>
      show win0_6.index (rowPoint0 i) 0 * 5000 ≤ (i 0).val ∧ (i 0).val < win0_6.index (rowPoint0 i) 0 * 5000 + 5000
      rw [e0]; show (i 0).val / 5000 * 5000 ≤ (i 0).val ∧ (i 0).val < (i 0).val / 5000 * 5000 + 5000; omega
    | ⟨1, _⟩ =>
      show win0_6.index (rowPoint0 i) 1 * 96 ≤ (i 1).val ∧ (i 1).val < win0_6.index (rowPoint0 i) 1 * 96 + 96
      rw [e1]; omega

end Cert.KernelIdeal.Hand

end
-- ==== Proof.Region1.lean ====
/-
  The second kernel region, read as a whole-array function, for any contents `V` of the buffers at its entry.

  Point t of its ten grid points reads rows 5000·t … 5000·t + 4999 of the aggregate array and of the root term and
  writes the same rows of the result; the body is entry-wise max(a + r, 0). Each written block is therefore the
  block of ONE entry-wise function of the two whole arrays, `reluArr`; the ten blocks tile the 50000 rows, so after
  the region the result array IS `reluArr` of the two arrays the region found.
-/
import proofs.«159277_j4071628996707_1_alg».proof.Proof.Gen.KernelIdeal.Frame
import proofs.«159277_j4071628996707_1_alg».proof.Proof.Lin
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem hz1 : (![0, 0] : Fin 2 → Nat) = fun _ => 0 := funext fun a => by fin_cases a <;> rfl

/-- All three windows sit at block row t at grid point t. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The aggregate's block at point t, read where the result's block sits. -/
theorem iblk1_0_apply (c : Dev nD) (t : Fin cfg1.N) (j : S5000x96.Idx) :
    (iblk1 V c 0 t : Vec Ideal S5000x96 .f32) j = (V c main_v43 : S50000x96.Idx → EReal) (((cfg1.win 2).blk t).view.emb j) := by
  obtain ⟨e0, e1, -, -, e4, e5⟩ := idx_facts1 t
  unfold iblk1
  rw [View.read_apply]
  show V c main_v43 _ = V c main_v43 _
  refine congrArg (V c main_v43) ?_
  funext a
  apply Fin.ext
  match a with
  | ⟨0, _⟩ => show win1_0.index t 0 * 5000 + 1 * (j 0).val = win1_2.index t 0 * 5000 + 1 * (j 0).val; rw [e0, e4]
  | ⟨1, _⟩ => show win1_0.index t 1 * 96 + 1 * (j 1).val = win1_2.index t 1 * 96 + 1 * (j 1).val; rw [e1, e5]

/-- The root term's block at point t, read where the result's block sits. -/
theorem iblk1_1_apply (c : Dev nD) (t : Fin cfg1.N) (j : S5000x96.Idx) :
    (iblk1 V c 1 t : Vec Ideal S5000x96 .f32) j = (V c main_v30_1 : S50000x96.Idx → EReal) (((cfg1.win 2).blk t).view.emb j) := by
  obtain ⟨-, -, e2, e3, e4, e5⟩ := idx_facts1 t
  unfold iblk1
  rw [View.read_apply]
  show V c main_v30_1 _ = V c main_v30_1 _
  refine congrArg (V c main_v30_1) ?_
  funext a
  apply Fin.ext
  match a with
  | ⟨0, _⟩ => show win1_1.index t 0 * 5000 + 1 * (j 0).val = win1_2.index t 0 * 5000 + 1 * (j 0).val; rw [e2, e4]
  | ⟨1, _⟩ => show win1_1.index t 1 * 96 + 1 * (j 1).val = win1_2.index t 1 * 96 + 1 * (j 1).val; rw [e3, e5]

/-- What point t writes back is block t of `reluArr` of the two arrays the region found. -/
theorem flushed1_2_eq (c : Dev nD) (t : Fin cfg1.N) :
    (dat1 V c).flushed 2 t = ((cfg1.win 2).blk t).view.read (Elt Ideal) (reluArr (V c main_v43) (V c main_v30_1)) := by
  show (cfg1.win 2).cut (grid1.coords t) ((dat1 V c).after 2 t) = _
  rw [after1_2]
  unfold out1_2
  rw [View.canon_unit_zero hz1]
  simp only [View.ld_unit_zero (S := S5000x96) hz1]
  funext j
  show k1_pay1 (F := Ideal) (iblk1 V c 0 t) (iblk1 V c 1 t) j
    = reluArr (V c main_v43) (V c main_v30_1) (((cfg1.win 2).blk t).view.emb j)
  refine (pay_relu_apply (iblk1 V c 0 t) (iblk1 V c 1 t) j).trans ?_
  unfold reluArr
  rw [iblk1_0_apply V c t j, iblk1_1_apply V c t j]

/-- An index of the result array is in point t's block iff each coordinate is in the block's range. -/
theorem mem_blk1_2 (t : Fin cfg1.N) (i : S50000x96.Idx) :
    i ∈ ((cfg1.win 2).blk t).view.set ↔ ∀ a : Fin 2, win1_2.index t a * S5000x96.size a ≤ (i a).val ∧ (i a).val < win1_2.index t a * S5000x96.size a + S5000x96.size a := by
  show i ∈ ((View.whole main_v44).slice (win1_2.rect t)).set ↔ _
  rw [View.set_slice_whole, Rect.mem_set_unit]
  exact Iff.rfl

/-- Row r is written by the point r / 5000. -/
def rowPoint1 (i : S50000x96.Idx) : Fin cfg1.N :=
  ⟨(i 0).val / 5000, by have h := idx2_lt0 i; show (i 0).val / 5000 < 10; omega⟩

/-- After the region the result array is max(aggregate + root term, 0), entry by entry. -/
theorem arr1_2 (c : Dev nD) :
    (dat1 V c).arrAt 2 cfg1.N = reluArr (V c main_v43) (V c main_v30_1) :=
  (dat1 V c).arrAt_eq_of_cover 2 (reluArr (V c main_v43) (V c main_v30_1)) (fun t _ => flushed1_2_eq V c t) fun i => by
    have h0 : (i 0).val < 50000 := idx2_lt0 i
    have h1 : (i 1).val < 96 := idx2_lt1 i
    obtain ⟨-, -, -, -, e0, e1⟩ := idx_facts1 (rowPoint1 i)
    refine ⟨rowPoint1 i, flush1_2 _, ?_⟩
    rw [mem_blk1_2]
    intro a
    match a with
    | ⟨0, _⟩ =>
      show win1_2.index (rowPoint1 i) 0 * 5000 ≤ (i 0).val ∧ (i 0).val < win1_2.index (rowPoint1 i) 0 * 5000 + 5000
      rw [e0]; show (i 0).val / 5000 * 5000 ≤ (i 0).val ∧ (i 0).val < (i 0).val / 5000 * 5000 + 5000; omega
    | ⟨1, _⟩ =>
      show win1_2.index (rowPoint1 i) 1 * 96 ≤ (i 1).val ∧ (i 1).val < win1_2.index (rowPoint1 i) 1 * 96 + 96
      rw [e1]; omega

end Cert.KernelIdeal.Hand

end
-- ==== Proof.RefSide.lean ====
/-
  The reference program's result, as the layer's formula.

  The reference computes h = X·W₁ᵀ + b₁ with one whole matrix product, gathers and scales its rows, scatter-adds them
  into the aggregate, and returns max((agg + X·W₂ᵀ) + b₂, 0). Read entry by entry, h is `linVec` of the arguments
  (the product as the sum over the shared axis, the bias repeated down the rows), the root term plus its bias is
  `linVec` too, and moving the bias inside the root term is associativity of addition. The aggregate is kept as ONE
  function `aggR` of h and the edge list: it is never opened.
-/
import proofs.«159277_j4071628996707_1_alg».proof.Proof.Gen.ReferenceIdeal.Read
import proofs.«159277_j4071628996707_1_alg».proof.Proof.Spec

noncomputable section

open scoped BigOperators

namespace Cert.ReferenceIdeal.Hand

open Idealize.ShloMosaic Idealize.ShloMosaic.ValueIdx
open Cert.ReferenceIdeal Cert.ReferenceIdeal.Read Cert.Gcn

/-- The aggregate as a function of the transformed features `h` and the edge list: gather the source rows of `h`,
    scale each by its edge's normalisation, scatter-add into the destination rows. -/
def aggR (h : FVec Ideal S50000x96 .f32) (x1 : IVec S2x800000 32) : FVec Ideal S50000x96 .f32 :=
  Host.scatterAdd (F := Ideal) scatter_S50000x96_S800000x1_S800000x96_1_0_0_1 (val_main_v41 (F := Ideal)) (val_main_v42 (F := Ideal) x1)
    (mulf (F := Ideal) (Host.gather gather_S50000x96_S800000x1_S800000x96_1_0_n_n_0_1_196 h (val_main_v36 (F := Ideal) x1))
      (val_main_v39 (F := Ideal) x1))

/-- The reference's aggregate stage is `aggR` of its transformed features. -/
theorem v43_eq (x0 : (⟨S50000x96, .f32⟩ : BufTy).Contents (Elt Ideal)) (x1 : (⟨S2x800000, .i32⟩ : BufTy).Contents (Elt Ideal))
    (x2 : (⟨S96x96, .f32⟩ : BufTy).Contents (Elt Ideal)) (x3 : (⟨S96, .f32⟩ : BufTy).Contents (Elt Ideal)) :
    val_main_v43 (F := Ideal) x0 x1 x2 x3 = aggR (val_main_v30 (F := Ideal) x0 x2 x3) x1 := by
  unfold val_main_v43 val_main_v40 val_main_v37 aggR
  rfl

/-- The reference's transformed features are the dense layer of the arguments. -/
theorem lin_ref (x0 : (⟨S50000x96, .f32⟩ : BufTy).Contents (Elt Ideal)) (x2 : (⟨S96x96, .f32⟩ : BufTy).Contents (Elt Ideal))
    (x3 : (⟨S96, .f32⟩ : BufTy).Contents (Elt Ideal)) :
    val_main_v30 (F := Ideal) x0 x2 x3 = linVec x0 (val_main_v26 (F := Ideal) x2) x3 := by
  funext i
  rw [val_main_v30_apply, val_main_v27_apply, val_main_v29_apply, val_main_v28_apply]
  unfold linVec
  have el : ∀ k : Fin 96, lidx_main_v27 i k = ix2 (⟨(i 0).val, idx2_lt0 i⟩ : Fin 50000) k := fun k => funext fun a => by
    match a with | ⟨0, _⟩ => rfl | ⟨1, _⟩ => rfl
  have er : ∀ k : Fin 96, ridx_main_v27 i k = ix2 k (⟨(i 1).val, idx2_lt1 i⟩ : Fin 96) := fun k => funext fun a => by
    match a with | ⟨0, _⟩ => rfl | ⟨1, _⟩ => rfl
  have eb : idx_main_v28 (idx_main_v29 i) = ix1 (⟨(i 1).val, idx2_lt1 i⟩ : Fin 96) := funext fun a => by
    match a with | ⟨0, _⟩ => rfl
  simp only [el, er, eb]
  rfl

/-- The reference's root product plus its bias, at an entry, is the dense layer of the arguments. -/
theorem root_ref (x0 : (⟨S50000x96, .f32⟩ : BufTy).Contents (Elt Ideal)) (x4 : (⟨S96x96, .f32⟩ : BufTy).Contents (Elt Ideal))
    (x5 : (⟨S96, .f32⟩ : BufTy).Contents (Elt Ideal)) (i : S50000x96.Idx) :
    (val_main_v45 (F := Ideal) x0 x4 i : EReal) + val_main_v48 (F := Ideal) x5 i = linVec x0 (val_main_v44 (F := Ideal) x4) x5 i := by
  rw [val_main_v45_apply, val_main_v48_apply, val_main_v47_apply]
  unfold linVec
  have el : ∀ k : Fin 96, lidx_main_v45 i k = ix2 (⟨(i 0).val, idx2_lt0 i⟩ : Fin 50000) k := fun k => funext fun a => by
    match a with | ⟨0, _⟩ => rfl | ⟨1, _⟩ => rfl
  have er : ∀ k : Fin 96, ridx_main_v45 i k = ix2 k (⟨(i 1).val, idx2_lt1 i⟩ : Fin 96) := fun k => funext fun a => by
    match a with | ⟨0, _⟩ => rfl | ⟨1, _⟩ => rfl
  have eb : idx_main_v47 (idx_main_v48 i) = ix1 (⟨(i 1).val, idx2_lt1 i⟩ : Fin 96) := funext fun a => by
    match a with | ⟨0, _⟩ => rfl
  simp only [el, er, eb]

/-- The reference's result: max(agg + root, 0) with agg and root the layer's two dense terms. -/
theorem ref_result (x0 : (⟨S50000x96, .f32⟩ : BufTy).Contents (Elt Ideal)) (x1 : (⟨S2x800000, .i32⟩ : BufTy).Contents (Elt Ideal))
    (x2 : (⟨S96x96, .f32⟩ : BufTy).Contents (Elt Ideal)) (x3 : (⟨S96, .f32⟩ : BufTy).Contents (Elt Ideal))
    (x4 : (⟨S96x96, .f32⟩ : BufTy).Contents (Elt Ideal)) (x5 : (⟨S96, .f32⟩ : BufTy).Contents (Elt Ideal)) :
    val_main_v50 (F := Ideal) x0 x1 x2 x3 x4 x5
      = reluArr (aggR (linVec x0 (val_main_v26 (F := Ideal) x2) x3) x1) (linVec x0 (val_main_v44 (F := Ideal) x4) x5) := by
  funext i
  rw [val_main_v50_apply, val_main_v49_apply, val_main_v46_apply, v43_eq, lin_ref, val_main_call0_v0_apply, val_main_call0_cst_apply]
  unfold reluArr
  rw [← root_ref x0 x4 x5 i, relu_assoc]
  rfl

end Cert.ReferenceIdeal.Hand

end
-- ==== Proof.HostK.lean ====
/-
  What the host operations around the two kernel regions leave in the buffers the regions read, at the ideal values.

  Before the first region the host transposes the two weight matrices and views the two bias vectors as 1×96 rows;
  the node features are an argument, untouched. It also derives, from the edge list alone, the source and destination
  columns and each edge's normalisation 1/√(deg(src)·deg(dst)). Between the regions it gathers the source rows of the
  first region's first output, scales them and scatter-adds them by destination: the same operations, on the same
  edge-derived values, as the reference program applies to its own transformed features, so the aggregate the second
  region reads is the reference's aggregate function `aggR` of the first region's output (never opened). The second
  region's other operand is the first region's second output, which no host operation writes.
-/
import proofs.«159277_j4071628996707_1_alg».proof.Proof.Gen.KernelIdeal.Frame
import proofs.«159277_j4071628996707_1_alg».proof.Proof.Gen.ReferenceIdeal.Read
import proofs.«159277_j4071628996707_1_alg».proof.Proof.RefSide
import Idealize.ShloMosaic.PureOps.Ideal

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The first region finds the node features as launched. -/
theorem V1_arg0 (c : Dev nD) : V1 m ρ c main_arg0 = m ((c : Thread nD τ).loc main_arg0) := by
  show StableHlo.after hostOps0 (W0 m ρ c) (Proc.devRef .tc main_arg0) = _
  after_results_simp

/-- … the first weight matrix transposed, -/
theorem V1_v26 (c : Dev nD) :
    V1 m ρ c main_v26 = Cert.ReferenceIdeal.Read.val_main_v26 (F := Ideal) (m ((c : Thread nD τ).loc main_arg2)) := by
  show StableHlo.after hostOps0 (W0 m ρ c) (Proc.devRef .tc main_v26) = _
  after_results_simp
  rfl

/-- … the second weight matrix transposed, -/
theorem V1_v27 (c : Dev nD) :
    V1 m ρ c main_v27 = Cert.ReferenceIdeal.Read.val_main_v44 (F := Ideal) (m ((c : Thread nD τ).loc main_arg4)) := by
  show StableHlo.after hostOps0 (W0 m ρ c) (Proc.devRef .tc main_v27) = _
  after_results_simp
  rfl

/-- … the first bias as a 1×96 row, -/
theorem V1_v28 (c : Dev nD) :
    V1 m ρ c main_v28 = shapeCast S1x96 (m ((c : Thread nD τ).loc main_arg3)) shapeCasts_S96_S1x96 := by
  show StableHlo.after hostOps0 (W0 m ρ c) (Proc.devRef .tc main_v28) = _
  after_results_simp
  rfl

/-- … and the second bias as a 1×96 row. -/
theorem V1_v29 (c : Dev nD) :
    V1 m ρ c main_v29 = shapeCast S1x96 (m ((c : Thread nD τ).loc main_arg5)) shapeCasts_S96_S1x96 := by
  show StableHlo.after hostOps0 (W0 m ρ c) (Proc.devRef .tc main_v29) = _
  after_results_simp
  rfl

/-- The source column of the edge list, as the reference derives it. -/
theorem W1_v1 (c : Dev nD) :
    W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  rfl

/-- The destination column of the edge list, as the reference derives it. -/
theorem W1_v3 (c : Dev nD) :
    W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

set_option maxHeartbeats 8000000 in
/-- Each edge's normalisation, as the reference derives it from the edge list. -/
theorem W1_v25 (c : Dev nD) :
    W1 m ρ c (Proc.devRef .tc main_v25) = Cert.ReferenceIdeal.Read.val_main_v25 (F := Ideal) (m ((c : Thread nD τ).loc main_arg1)) := by
  show StableHlo.after hostOps0 (W0 m ρ c) (Proc.devRef .tc main_v25) = _
  after_results_simp
  rfl

set_option maxHeartbeats 8000000 in
/-- The aggregate the second region reads is the reference's aggregate function of the first region's first output. -/
theorem V3_v43 (c : Dev nD) :
    V3 m ρ c main_v43 = Cert.ReferenceIdeal.Hand.aggR (W2 m ρ c (Proc.devRef .tc main_v30_0)) (m ((c : Thread nD τ).loc main_arg1)) := by
  show StableHlo.after hostOps1 (W2 m ρ c) (Proc.devRef .tc main_v43) = _
  after_results_simp
  rw [W2_of_ne m ρ c main_v1 (by decide), W2_of_ne m ρ c main_v3 (by decide), W2_of_ne m ρ c main_v25 (by decide),
    W1_v1, W1_v3, W1_v25]
  rfl

/-- The second region's other operand is the first region's second output. -/
theorem V3_v30_1 (c : Dev nD) : V3 m ρ c main_v30_1 = W2 m ρ c (Proc.devRef .tc main_v30_1) := by
  show StableHlo.after hostOps1 (W2 m ρ c) (Proc.devRef .tc main_v30_1) = _
  after_results_simp

end Cert.KernelIdeal.Hand

end
-- ==== Proof.Bridge.lean ====
/-
  The idealized kernel's result array, as the layer's formula of the six arguments.

  Reading the run's last boundary backwards: the result is what the second region leaves, max(agg + root, 0) entry by
  entry of the two arrays it found; `root` is the first region's second output and `agg` the aggregate function of the
  first region's first output; each output of the first region is the dense layer X·WTᵢ + bᵢ of the arrays IT found,
  which the host prepared from the arguments (the transposed weights, the biases viewed as rows). Put together the
  result is `layer`, the very expression the reference's result is.
-/
import proofs.«159277_j4071628996707_1_alg».proof.Proof.KRun
import proofs.«159277_j4071628996707_1_alg».proof.Proof.Region0
import proofs.«159277_j4071628996707_1_alg».proof.Proof.Region1
import proofs.«159277_j4071628996707_1_alg».proof.Proof.HostK
import proofs.«159277_j4071628996707_1_alg».proof.Proof.RefSide

set_option maxRecDepth 16384

noncomputable section

namespace Cert.KernelIdeal.Hand

open Idealize.ShloMosaic Idealize.ShloMosaic.TcCoe Idealize.SL.Sem
open Cert.KernelIdeal Cert.KernelIdeal.Gen Cert.Gcn

/-- One graph-convolution layer with a separate root weight, as a function of the six arguments. -/
def layer (x0 : FVec Ideal Cert.ReferenceIdeal.S50000x96 .f32) (x1 : IVec Cert.ReferenceIdeal.S2x800000 32)
    (x2 : FVec Ideal Cert.ReferenceIdeal.S96x96 .f32) (x3 : FVec Ideal Cert.ReferenceIdeal.S96 .f32)
    (x4 : FVec Ideal Cert.ReferenceIdeal.S96x96 .f32) (x5 : FVec Ideal Cert.ReferenceIdeal.S96 .f32) :
    FVec Ideal Cert.ReferenceIdeal.S50000x96 .f32 :=
  reluArr (Cert.ReferenceIdeal.Hand.aggR (linVec x0 (Cert.ReferenceIdeal.Read.val_main_v26 (F := Ideal) x2) x3) x1)
    (linVec x0 (Cert.ReferenceIdeal.Read.val_main_v44 (F := Ideal) x4) x5)

variable (m : (ℓ : Loc nD τ sig) → Buf (Elt Ideal) ℓ) (ρ : Dev nD → PrngReg)

/-- The first region's first output: the dense layer of the features with the first weight and bias. -/
theorem W2_v30_0 (c : Dev nD) :
    W2 m ρ c (Proc.devRef .tc main_v30_0)
      = linVec (m ((c : Thread nD τ).loc main_arg0))
          (Cert.ReferenceIdeal.Read.val_main_v26 (F := Ideal) (m ((c : Thread nD τ).loc main_arg2))) (m ((c : Thread nD τ).loc main_arg3)) := by
  rw [show W2 m ρ c (Proc.devRef .tc main_v30_0) = (dat0 (V1 m ρ) c).arrAt 5 cfg0.N from W2_arr m ρ c 5,
    arr0_5 (V1 m ρ) c, V1_arg0, V1_v26, V1_v28]
  exact linArr_shapeCast _ _ _ _

/-- The first region's second output: the dense layer of the features with the root weight and bias. -/
theorem W2_v30_1 (c : Dev nD) :
    W2 m ρ c (Proc.devRef .tc main_v30_1)
      = linVec (m ((c : Thread nD τ).loc main_arg0))
          (Cert.ReferenceIdeal.Read.val_main_v44 (F := Ideal) (m ((c : Thread nD τ).loc main_arg4))) (m ((c : Thread nD τ).loc main_arg5)) := by
  rw [show W2 m ρ c (Proc.devRef .tc main_v30_1) = (dat0 (V1 m ρ) c).arrAt 6 cfg0.N from W2_arr m ρ c 6,
    arr0_6 (V1 m ρ) c, V1_arg0, V1_v27, V1_v29]
  exact linArr_shapeCast _ _ _ _

/-- The result array at the end of the run is the layer of the six arguments. -/
theorem kernel_result (c : Dev nD) :
    W4 m ρ c (Proc.devRef .tc main_v44)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [show W4 m ρ c (Proc.devRef .tc main_v44) = (dat1 (V3 m ρ) c).arrAt 2 cfg1.N from W4_arr m ρ c 2,
    arr1_2 (V3 m ρ) c, V3_v43, V3_v30_1, W2_v30_0, W2_v30_1]
  rfl

/-- The idealized kernel's run, read: the result at the layer of the arguments, the arguments unchanged. -/
theorem run : θ_run defs (onTc (τ := τ) (main (F := Ideal))) ⟨m, fun _ => 0, ρ⟩ (fun r => ∀ c : Dev nD,
      r.2.mem ((c.tc : Thread nD τ).loc main_v44)
        = layer (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (kernel_result m ρ c), (h c).2⟩) (run_named m ρ)

end Cert.KernelIdeal.Hand

end
-- ==== Proof.lean ====
/-
  One graph-convolution layer with a separate root weight, on 50000 nodes, 800000 edges and 96 features:
      out = max( scatter_add( norm · lin₁(X)[src], dst ) + lin₂(X), 0 ),   linᵢ(X) = X·Wᵢᵀ + bᵢ,
  norm(e) = 1/√(deg(src e)·deg(dst e)) with the in-degree clamped below at 1.

  The kernel computes lin₁ and lin₂ in one tiled kernel region (ten blocks of 5000 rows, a matrix product per block
  with the operands rounded to bf16 first), does the degree count, the gather, the scaling and the scatter-add on the
  host, and adds and clamps in a second tiled region. The reference does everything on the host with whole matrix
  products and adds the root bias last.

  At the ideal values rounding to bf16 is the identity and a matrix product is the plain sum over the shared axis,
  so block t of each output of the first region is rows 5000t … 5000t+4999 of X·Wᵢᵀ + bᵢ, and the ten blocks tile
  the array: the first region's outputs are the reference's lin₁(X) and its root term with the bias already added.
  The host operations between the regions are, operation for operation, the reference's own, applied to equal arrays,
  so they are carried as one function and never opened. The second region is entry-wise max(agg + root, 0); the
  reference's max((agg + X·W₂ᵀ) + b₂, 0) is the same by associativity of addition on the extended reals. No
  finiteness of the inputs is used.

  The three frames: the two kernel programs' frames are the generated ones; the reference has no kernel and its frame
  is its generated run with the result dropped. The idealization rewrote no operation, so `preserves` is trivial.
-/
import proofs.«159277_j4071628996707_1_alg».proof.Defs
import proofs.«159277_j4071628996707_1_alg».proof.Proof.Gen.Kernel
import proofs.«159277_j4071628996707_1_alg».proof.Proof.Gen.Kernel.Skeleton
import proofs.«159277_j4071628996707_1_alg».proof.Proof.Gen.Kernel.Launch
import proofs.«159277_j4071628996707_1_alg».proof.Proof.Gen.Kernel.Points
import proofs.«159277_j4071628996707_1_alg».proof.Proof.Gen.Kernel.Frame
import proofs.«159277_j4071628996707_1_alg».proof.Proof.Gen.KernelIdeal
import proofs.«159277_j4071628996707_1_alg».proof.Proof.Gen.KernelIdeal.Skeleton
import proofs.«159277_j4071628996707_1_alg».proof.Proof.Gen.KernelIdeal.Launch
import proofs.«159277_j4071628996707_1_alg».proof.Proof.Gen.KernelIdeal.Points
import proofs.«159277_j4071628996707_1_alg».proof.Proof.Gen.KernelIdeal.Frame
import proofs.«159277_j4071628996707_1_alg».proof.Proof.Gen.ReferenceIdeal
import proofs.«159277_j4071628996707_1_alg».proof.Proof.Gen.Pre_finite_inputs
import proofs.«159277_j4071628996707_1_alg».proof.Proof.Gen.ReferenceIdeal.Run
import proofs.«159277_j4071628996707_1_alg».proof.Proof.Gen.ReferenceIdeal.Read
import proofs.«159277_j4071628996707_1_alg».proof.Proof.Bridge
import Idealize.ShloMosaic.Adequacy
import Idealize.ShloMosaic.Init

noncomputable section

namespace Cert.Proof

open Idealize.ShloMosaic Idealize.SL.Sem Cert.Kernel

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both idealized programs end with the layer of the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.ReferenceIdeal.Hand.ref_result,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
